-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x4096 : Shape := ⟨3, ![16, 4096, 4096]⟩
abbrev S4096 : Shape := ⟨1, ![4096]⟩
abbrev S_ : Shape := ⟨0, ![]⟩

class Facts : Prop where
  bcast_S_S16x4096x4096 : S_.BroadcastsInDim S16x4096x4096 (![] : Fin 0 → Fin S16x4096x4096.rank)
  reducesTo_S16x4096x4096_S_d0_1_2 : S16x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16x4096x4096 .f32) (main_arg1 : FVec F S4096 .f32) : IVec S_ 1 :=
  let main_v0 : FVec F S16x4096x4096 .f32 := Host.absf main_arg0
  let main_cst : FVec F S_ .f32 := constant S_ .f32 0x7F800000#32
  let main_v1 : FVec F S16x4096x4096 .f32 := broadcastInDim S16x4096x4096 ![] bcast_S_S16x4096x4096 main_cst
  let main_v2 : IVec S16x4096x4096 1 := cmpf .olt main_v0 main_v1
  let main_c : IVec S_ 1 := constantI S_ 1 1#1
  let main_v3 : IVec S_ 1 := (fun x v => Host.reduce IntOp.andi x v reducesTo_S16x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16x4096x4096 : Shape := ⟨3, ![16, 4096, 4096]⟩
abbrev S4096 : Shape := ⟨1, ![4096]⟩
abbrev S65536x4096 : Shape := ⟨2, ![65536, 4096]⟩
abbrev S1x4096 : Shape := ⟨2, ![1, 4096]⟩
abbrev S512x4096 : Shape := ⟨2, ![512, 4096]⟩

abbrev nBuf : Space → Nat
  | .hbm => 6
  | .vmem => 5
  | .smem => 0
  | _ => 0

abbrev bufTy : (tb : Table) → Fin (tcTables nBuf tb) → BufTy
  | .hbm, ⟨0, _⟩ => ⟨S16x4096x4096, .f32⟩
  | .hbm, ⟨1, _⟩ => ⟨S4096, .f32⟩
  | .hbm, ⟨2, _⟩ => ⟨S65536x4096, .f32⟩
  | .hbm, ⟨3, _⟩ => ⟨S1x4096, .f32⟩
  | .hbm, ⟨4, _⟩ => ⟨S65536x4096, .f32⟩
  | .hbm, ⟨5, _⟩ => ⟨S16x4096x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x4096_S65536x4096 : S16x4096x4096.ShapeCasts S65536x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S65536x4096_S16x4096x4096 : S65536x4096.ShapeCasts S16x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S65536x4096.size a
  hwx0_0 : ∀ i : grid0.Coords, EltTy.bits .f32 = 32 ∨ (Rect.block (s := S65536x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S65536x4096.size a
  hwx0_2 : ∀ i : grid0.Coords, EltTy.bits .f32 = 32 ∨ (Rect.block (s := S65536x4096) S512x4096.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S16x4096x4096 : Shape := ⟨3, ![16, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16x4096x4096, .f32⟩
  | .hbm, ⟨1, _⟩ => ⟨S4096, .f32⟩
  | .hbm, ⟨2, _⟩ => ⟨S1x1x4096, .f32⟩
  | .hbm, ⟨3, _⟩ => ⟨S16x4096x4096, .f32⟩
  | .hbm, ⟨4, _⟩ => ⟨S16x4096x4096, .f32⟩
  | _, _ => ⟨S16x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S16x4096x4096_0_1_2 : S1x1x4096.BroadcastsInDim S16x4096x4096 (![0, 1, 2] : Fin 3 → Fin S16x4096x4096.rank)

variable [Facts₀]

class Facts : Prop extends Facts₀ where

variable [Facts]
-- ==== Proof.Payload.lean ====
/-
  What the kernel's body computes at one point of its grid, index by index.

  The body loads a block of 512 rows of 4096 entries and the one row of 4096 entries, stretches the one row over the
  512 rows, and multiplies entry by entry. The two shape casts are to the shapes the values already have, so they are the
  identity, and the stretched row at `(p, q)` is the one row at `(0, q)`: the value stored at `(p, q)` is the
  block's entry `(p, q)` times the row's entry `q`.
-/
import proofs.«127596_j1580547973848_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Scale

open Cert.KernelIdeal Cert.KernelIdeal.Gen Idealize.ShloMosaic Idealize.ShloMosaic.ValueIdx

variable {F : FTy → Type} [FloatOps F]

/-- The stored value at `(p, q)`: the block at `(p, q)` times the one row at `(0, q)`. -/
theorem payload_apply (x0 : FVec F S512x4096 .f32) (x1 : FVec F S1x4096 .f32) (p : Fin 512) (q : Fin 4096) :
    k0_pay1 x0 x1 (ix2 p q) = FloatOps.mulf (x0 (ix2 p q)) (x1 (ix2 (0 : Fin 1) q)) := by
  unfold k0_pay1
  show FloatOps.mulf (shapeCast S512x4096 x0 shapeCasts_S512x4096_S512x4096 (ix2 p q))
      (broadcastTo S512x4096 (shapeCast S1x4096 x1 shapeCasts_S1x4096_S1x4096) broadcasts_S1x4096_S512x4096 (ix2 p q)) = _
  rw [shapeCast_self, shapeCast_self, broadcastTo_1b_ab_apply]

/-- The same at an index of the block not yet split into its two coordinates. -/
theorem payload_at (x0 : FVec F S512x4096 .f32) (x1 : FVec F S1x4096 .f32) (j : S512x4096.Idx) :
    k0_pay1 x0 x1 j = FloatOps.mulf (x0 j) (x1 (ix2 (0 : Fin 1) (⟨(j 1).val, (j 1).isLt⟩ : Fin 4096))) := by
  obtain ⟨p, q, rfl⟩ : ∃ (p : Fin 512) (q : Fin 4096), j = ix2 p q := ⟨j 0, j 1, eq_ix2 j⟩
  exact payload_apply x0 x1 p q

end Cert.KernelIdeal.Scale

end
-- ==== Proof.ScaleSpec.lean ====
/-
  Scaling the last axis of a cube by a vector, and the same thing on the cube's rows laid side by side.

  A cube `x` of extents 16 × 4096 × 4096 and a vector `w` of length 4096 give the cube whose entry `(b, s, d)` is
  `x (b, s, d) · w d`. Row-major, the cube is also the matrix of its 65536 = 16 · 4096 rows, row `b · 4096 + s` being
  `x (b, s, ·)`, and the vector is a matrix of one row. Multiplying every row of the matrix by the one row, entry by
  entry, and laying the result out as a cube again gives the scaled cube: the entry `(b, s, d)` sits at row-major position
  `(b · 4096 + s) · 4096 + d` in both layouts. No property of the product is used: the two sides apply the same
  multiplication to the same pair of entries, so the statements hold over any float values.
-/
import Idealize.ShloMosaic.Lib.ValueIdx
import Idealize.ShloMosaic.Lib.ValueLayout
import Idealize.ShloMosaic.Lib.Pipeline.Value

noncomputable section

namespace Cert.ScaleSpec

open Idealize.ShloMosaic Idealize.ShloMosaic.ValueIdx

variable {F : FTy → Type} [FloatOps F]

/-- The cube's extents. -/
abbrev Cube : Shape := ⟨3, ![16, 4096, 4096]⟩
/-- The vector's. -/
abbrev Lane : Shape := ⟨1, ![4096]⟩
/-- The cube's rows side by side. -/
abbrev Rows : Shape := ⟨2, ![65536, 4096]⟩
/-- The vector as a matrix of one row. -/
abbrev OneRow : Shape := ⟨2, ![1, 4096]⟩

/-- The cube scaled along its last axis: entry `(b, s, d)` is `x (b, s, d) · w d`. -/
def cubeScaled (x : FVec F Cube .f32) (w : FVec F Lane .f32) : FVec F Cube .f32 :=
  fun i => FloatOps.mulf (x i) (w (ix1 (⟨(i 2).val, (i 2).isLt⟩ : Fin 4096)))

/-- Every row of `X` times the one row `W`, entry by entry: entry `(r, d)` is `X (r, d) · W (0, d)`. -/
def rowsScaled (X : FVec F Rows .f32) (W : FVec F OneRow .f32) : FVec F Rows .f32 :=
  fun i => FloatOps.mulf (X i) (W (ix2 (0 : Fin 1) (⟨(i 1).val, (i 1).isLt⟩ : Fin 4096)))

theorem cubeScaled_apply (x : FVec F Cube .f32) (w : FVec F Lane .f32) (b : Fin 16) (s d : Fin 4096) :
    cubeScaled x w (ix3 b s d) = FloatOps.mulf (x (ix3 b s d)) (w (ix1 d)) := rfl

theorem rowsScaled_apply (X : FVec F Rows .f32) (W : FVec F OneRow .f32) (r : Fin 65536) (d : Fin 4096) :
    rowsScaled X W (ix2 r d) = FloatOps.mulf (X (ix2 r d)) (W (ix2 (0 : Fin 1) d)) := rfl

/-- The row of the matrix that holds the cube's row `(b, s)`. -/
def rowOf (b : Fin 16) (s : Fin 4096) : Fin 65536 := ⟨b.val * 4096 + s.val, by have := b.isLt; have := s.isLt; omega⟩

/-- The cube laid out as its rows reads, at `(b · 4096 + s, d)`, the cube at `(b, s, d)`. -/
theorem rows_of_cube_apply (x : FVec F Cube .f32) (h : Cube.ShapeCasts Rows) (b : Fin 16) (s d : Fin 4096) :
    shapeCast Rows x h (ix2 (rowOf b s) d) = x (ix3 b s d) :=
  shapeCast_apply x h _ _ (by
    rw [Shape.rowMajor_val_two, Shape.rowMajor_val_three]
    show (b.val * 4096 + s.val) * 4096 + d.val = (b.val * 4096 + s.val) * 4096 + d.val
    rfl)

/-- A matrix of 65536 rows laid out as a cube reads, at `(b, s, d)`, the matrix at `(b · 4096 + s, d)`. -/
theorem cube_of_rows_apply (Y : FVec F Rows .f32) (h : Rows.ShapeCasts Cube) (b : Fin 16) (s d : Fin 4096) :
    shapeCast Cube Y h (ix3 b s d) = Y (ix2 (rowOf b s) d) :=
  shapeCast_apply Y h _ _ (by
    rw [Shape.rowMajor_val_two, Shape.rowMajor_val_three]
    show (b.val * 4096 + s.val) * 4096 + d.val = (b.val * 4096 + s.val) * 4096 + d.val
    rfl)

/-- THE LAYOUT LAW: scaling the rows of the cube by the vector as one row, and laying the result out as a cube, is
    the cube scaled along its last axis. -/
theorem cube_of_rowsScaled (x : FVec F Cube .f32) (w : FVec F Lane .f32)
    (h1 : Cube.ShapeCasts Rows) (h2 : Lane.ShapeCasts OneRow) (h3 : Rows.ShapeCasts Cube) :
    shapeCast Cube (rowsScaled (shapeCast Rows x h1) (shapeCast OneRow w h2)) h3 = cubeScaled x w := by
  funext i
  obtain ⟨b, s, d, rfl⟩ : ∃ (b : Fin 16) (s d : Fin 4096), i = ix3 b s d := ⟨i 0, i 1, i 2, eq_ix3 i⟩
  rw [cube_of_rows_apply, rowsScaled_apply, rows_of_cube_apply, shapeCast_a_1a_apply, cubeScaled_apply]

end Cert.ScaleSpec

end
-- ==== Proof.Blocks.lean ====
/-
  From the blocks the kernel writes to the whole array it leaves.

  The grid has 128 points. At point `t` the kernel reads rows `512 t … 512 t + 511` of the 65536 × 4096 matrix, reads
  the one row, and writes the products to the same rows of the output: the three index maps send `t` to block `(t, 0)`
  of the matrix, block `(0, 0)` of the one row and block `(t, 0)` of the output. So what point `t` writes back is
  block `t` of ONE matrix, the rows scaled by the one row; and since row `r` lies in the block of point `r / 512`,
  the blocks cover the output, which therefore ends holding that matrix.
-/
import proofs.«127596_j1580547973848_2_alg».proof.Proof.Gen.KernelIdeal.Frame
import proofs.«127596_j1580547973848_2_alg».proof.Proof.Payload
import proofs.«127596_j1580547973848_2_alg».proof.Proof.ScaleSpec
import Idealize.ShloMosaic.Lib.Pipeline.Value

noncomputable section

namespace Cert.KernelIdeal.Scale

open Cert.KernelIdeal Cert.KernelIdeal.Gen Cert.ScaleSpec Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The three index maps over the grid: point `t` takes block `(t, 0)` of the matrix and of the output, and block
    `(0, 0)` of the one row. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the matrix's rows scaled by the one row, the matrix and the one row
    as the region finds them. -/
theorem flushed_eq (c : Dev nD) (t : Fin cfg0.N) :
    (dats m 0 c).flushed 2 t
      = ((cfg0.win 2).blk t).view.read (Elt F) (rowsScaled (V m c main_v0) (V m c main_v1)) := by
  show (cfg0.win 2).cut (grid0.coords t) ((dats m 0 c).after 2 t) = _
  rw [after0_2]
  unfold out0_2
  rw [View.canon_unit_zero zero_offsets]
  simp only [View.ld_unit_zero (S := S512x4096) zero_offsets, View.ld_unit_zero (S := S1x4096) zero_offsets]
  obtain ⟨e00, e01, e10, e11, e20, e21⟩ := block_indices t
  funext j
  refine (payload_at (iblk m c 0 t) (iblk m c 1 t) j).trans ?_
  show FloatOps.mulf (V m c main_v0 (((cfg0.win 0).blk t).view.emb j))
        (V m c main_v1 (((cfg0.win 1).blk t).view.emb (ix2 (0 : Fin 1) (⟨(j 1).val, (j 1).isLt⟩ : Fin 4096))))
      = FloatOps.mulf (V m c main_v0 (((cfg0.win 2).blk t).view.emb j))
        (V m c main_v1 (ix2 (0 : Fin 1) (⟨((((cfg0.win 2).blk t).view.emb j) 1).val, ((((cfg0.win 2).blk t).view.emb j) 1).isLt⟩ : Fin 4096)))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (ix2 (0 : Fin 1) (⟨(j 1).val, (j 1).isLt⟩ : Fin 4096))
      = ix2 (0 : Fin 1) (⟨((((cfg0.win 2).blk t).view.emb j) 1).val, ((((cfg0.win 2).blk t).view.emb j) 1).isLt⟩ : Fin 4096) := by
    funext a; apply Fin.ext
    match a with
    | ⟨0, _⟩ => show win0_1.index t (0 : Fin 2) * 1 + 1 * 0 = 0; omega
    | ⟨1, _⟩ => show win0_1.index t (1 : Fin 2) * 4096 + 1 * (j 1).val = win0_2.index t (1 : Fin 2) * 4096 + 1 * (j 1).val; omega
  rw [h0, h1]

/-- An index of the output is in point `t`'s block iff each coordinate is in the block's range on its axis. -/
theorem mem_block (t : Fin cfg0.N) (i : S65536x4096.Idx) :
    i ∈ ((cfg0.win 2).blk t).view.set
      ↔ ∀ a : Fin 2, win0_2.index t a * S512x4096.size a ≤ (i a).val
          ∧ (i a).val < win0_2.index t a * S512x4096.size a + S512x4096.size a := by
  show i ∈ ((View.whole main_v2).slice (win0_2.rect t)).set ↔ _
  rw [View.set_slice_whole, Rect.mem_set_unit]
  exact Iff.rfl

/-- Every index of the output is in some point's block: row `r` in that of point `r / 512`. -/
theorem covered (i : S65536x4096.Idx) :
    ∃ t : Fin cfg0.N, (cfg0.win 2).flush t = true ∧ i ∈ ((cfg0.win 2).blk t).view.set := by
  have hN : cfg0.N = 128 := N_0
  have hi0 : (i 0).val < 65536 := (i 0).isLt
  have hi1 : (i 1).val < 4096 := (i 1).isLt
  obtain ⟨t, ht⟩ : ∃ t : Fin cfg0.N, t.val = (i 0).val / 512 := ⟨⟨(i 0).val / 512, by rw [hN]; omega⟩, rfl⟩
  obtain ⟨-, -, -, -, e20, e21⟩ := block_indices t
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- THE OUTPUT after the region: the matrix's rows scaled by the one row. -/
theorem final (c : Dev nD) : (dats m 0 c).arrAt 2 cfg0.N = rowsScaled (V m c main_v0) (V m c main_v1) :=
  (dats m 0 c).arrAt_eq_of_cover 2 _ (fun t _ => flushed_eq m c t) covered

end Cert.KernelIdeal.Scale

end
-- ==== Proof.KernelRun.lean ====
/-
  The kernel's whole program: what its result holds after the run.

  Before the region the program lays the cube out as its 65536 rows and the vector as one row (two reshapes; the output
  starts as a copy of the rows, every entry of which the region overwrites). The region leaves the rows scaled by the one
  row. After it the program lays that matrix out as a cube again. By the layout law the result is the cube scaled along
  its last axis by the vector.
-/
import proofs.«127596_j1580547973848_2_alg».proof.Proof.Blocks
import Idealize.ShloMosaic.Lib.StableHlo.Run

noncomputable section

namespace Cert.KernelIdeal.Scale

open Cert.KernelIdeal Cert.KernelIdeal.Gen Cert.ScaleSpec Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The matrix the region finds: the cube's rows side by side. -/
theorem entry_rows (c : Dev nD) :
    (V m c main_v0 : FVec F S65536x4096 .f32)
      = shapeCast S65536x4096 (m ((c : Thread nD τ).loc main_arg0)) shapeCasts_S16x4096x4096_S65536x4096 := by
  show StableHlo.after hostOps0 (fun b => m (c, b)) (Proc.devRef .tc main_v0) = _
  after_results
  rfl

/-- The one row the region finds: the vector. -/
theorem entry_row (c : Dev nD) :
    (V m c main_v1 : FVec F S1x4096 .f32)
      = shapeCast S1x4096 (m ((c : Thread nD τ).loc main_arg1)) shapeCasts_S4096_S1x4096 := by
  show StableHlo.after hostOps0 (fun b => m (c, b)) (Proc.devRef .tc main_v1) = _
  after_results
  rfl

/-- The program's result: the region's output laid out as a cube, which is the cube scaled along its last axis. -/
theorem result_eq (c : Dev nD) :
    Pipeline.afterTail₀ cfgs (dats m) 0 (V0 m) [hostOps1] c main_v3
      = cubeScaled (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = rowsScaled (V m c main_v0) (V m c main_v1) :=
    (Pipeline.withArrays_arr spec0 launch0.win.arr_inj c _ _ 2).trans (final m c)
  rw [hw, entry_rows, entry_row]
  exact cube_of_rowsScaled _ _ _ _ _

/-- THE RUN, READ: every weakly fair execution of the program terminates with its result at the cube scaled along its
    last axis by the vector, the two arguments unchanged. -/
theorem run : θ_run defs (onTc (τ := τ) (main (F := F))) ⟨m, fun _ => 0, ρ⟩ fun r => ∀ c : Dev nD,
      r.2.mem ((c.tc : Thread nD τ).loc main_v3)
        = cubeScaled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Scale

end
-- ==== Proof.ReferenceValue.lean ====
/-
  What the reference computes, index by index.

  The reference broadcasts the vector `w` to a 1 × 1 × 4096 array and that to the cube's extents, and multiplies the
  cube `x` by it entry by entry. A broadcast reads its operand at the coordinates it keeps, so the broadcast cube at
  `(b, s, d)` is `w d`, and the product at `(b, s, d)` is `x (b, s, d) · w d`: the cube scaled along its last axis.
-/
import proofs.«127596_j1580547973848_2_alg».proof.Proof.Gen.ReferenceIdeal.Read
import proofs.«127596_j1580547973848_2_alg».proof.Proof.ScaleSpec

noncomputable section

namespace Cert.ReferenceIdeal.RefValue

open Cert.ReferenceIdeal Cert.ReferenceIdeal.Read Cert.ScaleSpec Idealize.ShloMosaic Idealize.ShloMosaic.ValueIdx

variable {F : FTy → Type} [FloatOps F]

/-- Through the two broadcasts, the cube's index `(b, s, d)` reads the vector at `d`. -/
theorem lane_of_cube (b : Fin 16) (s d : Fin 4096) : idx_main_v0 (idx_main_v1 (ix3 b s d)) = ix1 d :=
  funext fun a => match a with | ⟨0, _⟩ => rfl

/-- The reference's product is the cube scaled along its last axis by the vector. -/
theorem reference_eq (x : FVec F Cube .f32) (w : FVec F Lane .f32) :
    val_main_v2 (F := F) x w = cubeScaled x w := by
  funext i
  obtain ⟨b, s, d, rfl⟩ : ∃ (b : Fin 16) (s d : Fin 4096), i = ix3 b s d := ⟨i 0, i 1, i 2, eq_ix3 i⟩
  rw [val_main_v2_apply, val_main_v1_apply, val_main_v0_apply, lane_of_cube, cubeScaled_apply]

end Cert.ReferenceIdeal.RefValue

end
-- ==== Proof.lean ====
/-
  The kernel multiplies a cube `x` of extents 16 × 4096 × 4096 by a vector `w` of length 4096 along the cube's last
  axis: it lays the cube out as its 65536 rows and the vector as one row, runs over the rows in 128 blocks of 512,
  multiplying each block entry by entry with the one row stretched over it, and lays the result out as a cube again. The
  reference broadcasts `w` over the cube and multiplies entry by entry. Both results are, at `(b, s, d)`, the one
  product `x (b, s, d) · w d`: the entry `(b, s, d)` of the cube is the entry `(b · 4096 + s, d)` of its rows, and
  a broadcast reads the vector at the coordinate it keeps. No law of the product is used, so nothing is asked of the
  inputs and the finiteness of the inputs is not opened.

  The three frames are the generated ones (the reference's is its generated run with the result dropped); the kernel's
  idealization rewrote nothing, so the sanctioned-idealization conjunct is `True`.
-/
import proofs.«127596_j1580547973848_2_alg».proof.Defs
import proofs.«127596_j1580547973848_2_alg».proof.Proof.Gen.Kernel
import proofs.«127596_j1580547973848_2_alg».proof.Proof.Gen.Kernel.Frame
import proofs.«127596_j1580547973848_2_alg».proof.Proof.Gen.KernelIdeal
import proofs.«127596_j1580547973848_2_alg».proof.Proof.Gen.KernelIdeal.Frame
import proofs.«127596_j1580547973848_2_alg».proof.Proof.Gen.ReferenceIdeal
import proofs.«127596_j1580547973848_2_alg».proof.Proof.Gen.Pre_finite_inputs
import proofs.«127596_j1580547973848_2_alg».proof.Proof.Gen.ReferenceIdeal.Run
import proofs.«127596_j1580547973848_2_alg».proof.Proof.Gen.ReferenceIdeal.Read
import proofs.«127596_j1580547973848_2_alg».proof.Proof.KernelRun
import proofs.«127596_j1580547973848_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the cube scaled along its last axis by the vector: the kernel's result by its run read back
    through the blocks, the reference's product by reading its two broadcasts at an index, from arguments that agree. -/
theorem algebraic : Cert.algebraic_KernelIdeal_ReferenceIdeal := by
  intro m ρ m' ρ' _ hagree
  refine ⟨_, Cert.KernelIdeal.Scale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
